-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x64 .f32) (main_arg1 : FVec F S1x128 .f32) (main_arg2 : FVec F S1 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S1x1 : Shape := ⟨2, ![1, 1]⟩
abbrev S8000x64 : Shape := ⟨2, ![8000, 64]⟩
abbrev S8000x1 : Shape := ⟨2, ![8000, 1]⟩
abbrev S8000 : Shape := ⟨1, ![8000]⟩

abbrev nBuf : Space → Nat
  | .hbm => 64
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .hbm, ⟨56, _⟩ => ⟨S1x64, .f32⟩
  | .hbm, ⟨57, _⟩ => ⟨S1x64, .f32⟩
  | .hbm, ⟨58, _⟩ => ⟨S1x1, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S1x128_S1x64_0_0 : S1x128.Slices ![0, 0] S1x64
  slices_S1x128_S1x64_0_64 : S1x128.Slices ![0, 64] S1x64
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S1600000x1.size a
  hwx0_5 : ∀ i : grid0.Coords, EltTy.bits .f32 = 32 ∨ (Rect.block (s := S1600000x1) S8000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1600000x64.size a
  hwx0_6 : ∀ i : grid0.Coords, EltTy.bits .f32 = 32 ∨ (Rect.block (s := S1600000x64) S8000x64.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v20) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S8000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S128x1, .f32⟩
  | .hbm, ⟨38, _⟩ => ⟨S1600000x1, .f32⟩
  | .hbm, ⟨39, _⟩ => ⟨S1x1, .f32⟩
  | .hbm, ⟨40, _⟩ => ⟨S1600000x1, .f32⟩
  | .hbm, ⟨41, _⟩ => ⟨S1600000x1, .f32⟩
  | .hbm, ⟨42, _⟩ => ⟨S1600000x1, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000, .f32⟩
  | .hbm, ⟨64, _⟩ => ⟨S1600000x1, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  dot_S1600000x128_S128x1_S1600000x1_1_0_0_1_n_n_wf : DotDims.WF S1600000x128 S128x1 S1600000x1 [1] [0] [0] [1] [] []
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibUnitSplat.lean ====
/-
  A one-entry matrix [1, 1] broadcast to [a, b], read at an index: every entry is the one entry. General in the
  extents and in the element type.
-/
import Idealize.ShloMosaic.Lib.Pipeline.Value
import Idealize.ShloMosaic.Lib.ValueIdx

noncomputable section

namespace Cert.LibUnitSplat

open Idealize.ShloMosaic Idealize.ShloMosaic.ValueIdx

variable {α : Type}

/-- A `[1, 1]` array broadcast to `[a, b]` reads, at `(p, c)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibUnitSplat

end
-- ==== Proof.LibGatedRows.lean ====
/-
  A matrix scaled row by row by a gate, read at one entry, on the extended reals.

  For an [n, d] matrix x and a one-row matrix w of shape [1, d], the "row dot kept as a column" is the [n, 1] column whose
  entry p is the sum over j of x(p, j) * w(0, j): the row w spread over the n rows, multiplied in entry by entry, summed
  along each row from the neutral word, and the resulting vector laid as a column.  The gated scaling takes two such
  columns (of x0 against w0 and of x1 against w1), adds them, adds a one-entry matrix b spread over the rows, applies
  tanh, multiplies by a column c, spreads the result over the d columns and multiplies x1 by it entry by entry:
      entry (p, q)  =  x1(p, q) * ( tanh( (sum_j x0(p, j) * w0(0, j) + sum_j x1(p, j) * w1(0, j)) + b(0, 0) ) * c(p, 0) ).
  General in the extents n, d and in the float format.
-/
import Idealize.ShloMosaic.Lib.ValueLayout
import Idealize.ShloMosaic.Lib.Pipeline.Value
import Idealize.ShloMosaic.PureOps.Ideal.Laws
import proofs.«127869_j83459804496277_2_alg».proof.Proof.LibKeepdims
import proofs.«127869_j83459804496277_2_alg».proof.Proof.LibRowReduce
import proofs.«127869_j83459804496277_2_alg».proof.Proof.LibUnitSplat

noncomputable section

namespace Cert.LibGatedRows

open Idealize.ShloMosaic Idealize.ShloMosaic.ValueIdx

variable {φ : FTy}

/-- tanh of a vector, read at an index, is tanh of the entry. -/
theorem tanh_apply {s : Shape} (a : FVec Ideal s φ) (i : s.Idx) : tanh a i = Ideal.tanh (a i) := rfl

/-- Row p of x against the row w spread over the rows, summed along the row and kept as a column:
    the sum over j of x(p, j) * w(0, j). -/
theorem rowDot_column_apply {n d : ℕ} (x : FVec Ideal ⟨2, ![n, d]⟩ φ) (w : FVec Ideal ⟨2, ![1, d]⟩ φ)
    (h3 : (⟨2, ![1, d]⟩ : Shape).Broadcasts ⟨2, ![n, d]⟩) (acc : BitVec φ.bits)
    (hr : (⟨2, ![n, d]⟩ : Shape).Reduces [1] ⟨1, ![n]⟩) (hφ : FKind.Formats φ) (hacc : acc = FKind.add.neutral φ hφ)
    (h4 : (⟨1, ![n]⟩ : Shape).ShapeCasts ⟨2, ![n, 1]⟩) (p : Fin n) (u : Fin 1) :
    shapeCast ⟨2, ![n, 1]⟩ (multiReduction .add [1] ⟨1, ![n]⟩
        (mulf x (broadcastTo ⟨2, ![n, d]⟩ w h3)) acc hr hφ hacc) h4 (ix2 p u)
      = ∑ j : Fin d, x (ix2 p j) * w (ix2 (0 : Fin 1) j) := by
  refine (Cert.LibKeepdims.shapeCast_a_a1_apply _ h4 p u).trans ?_
  refine (Cert.LibRowReduce.multiReduction_add_row _ acc hr hφ hacc p).trans ?_
  refine Finset.sum_congr rfl fun j _ => ?_
  rw [mulf_apply, broadcastTo_1b_ab_apply]

/-- The gated scaling at entry (p, q). -/
theorem gated_apply {n d : ℕ} (x0 x1 : FVec Ideal ⟨2, ![n, d]⟩ φ) (w0 w1 : FVec Ideal ⟨2, ![1, d]⟩ φ)
    (b : FVec Ideal ⟨2, ![1, 1]⟩ φ) (c : FVec Ideal ⟨2, ![n, 1]⟩ φ)
    (h1 : (⟨2, ![n, d]⟩ : Shape).ShapeCasts ⟨2, ![n, d]⟩) (h2 : (⟨2, ![1, d]⟩ : Shape).ShapeCasts ⟨2, ![1, d]⟩)
    (h3 : (⟨2, ![1, d]⟩ : Shape).Broadcasts ⟨2, ![n, d]⟩) (acc : BitVec φ.bits)
    (hr : (⟨2, ![n, d]⟩ : Shape).Reduces [1] ⟨1, ![n]⟩) (hφ : FKind.Formats φ) (hacc : acc = FKind.add.neutral φ hφ)
    (h4 : (⟨1, ![n]⟩ : Shape).ShapeCasts ⟨2, ![n, 1]⟩)
    (h5 : (⟨2, ![1, 1]⟩ : Shape).ShapeCasts ⟨2, ![1, 1]⟩) (h6 : (⟨2, ![1, 1]⟩ : Shape).Broadcasts ⟨2, ![n, 1]⟩)
    (h7 : (⟨2, ![n, 1]⟩ : Shape).ShapeCasts ⟨2, ![n, 1]⟩) (h8 : (⟨2, ![n, 1]⟩ : Shape).Broadcasts ⟨2, ![n, d]⟩)
    (p : Fin n) (q : Fin d) :
    mulf (shapeCast ⟨2, ![n, d]⟩ x1 h1)
        (broadcastTo ⟨2, ![n, d]⟩
          (mulf
            (tanh
              (addf
                (addf
                  (shapeCast ⟨2, ![n, 1]⟩ (multiReduction .add [1] ⟨1, ![n]⟩
                    (mulf (shapeCast ⟨2, ![n, d]⟩ x0 h1) (broadcastTo ⟨2, ![n, d]⟩ (shapeCast ⟨2, ![1, d]⟩ w0 h2) h3)) acc hr hφ hacc) h4)
                  (shapeCast ⟨2, ![n, 1]⟩ (multiReduction .add [1] ⟨1, ![n]⟩
                    (mulf (shapeCast ⟨2, ![n, d]⟩ x1 h1) (broadcastTo ⟨2, ![n, d]⟩ (shapeCast ⟨2, ![1, d]⟩ w1 h2) h3)) acc hr hφ hacc) h4))
                (broadcastTo ⟨2, ![n, 1]⟩ (shapeCast ⟨2, ![1, 1]⟩ b h5) h6)))
            (shapeCast ⟨2, ![n, 1]⟩ c h7)) h8) (ix2 p q)
      = x1 (ix2 p q)
          * (Ideal.tanh ((∑ j : Fin d, x0 (ix2 p j) * w0 (ix2 (0 : Fin 1) j) + ∑ j : Fin d, x1 (ix2 p j) * w1 (ix2 (0 : Fin 1) j))
                + b (ix2 (0 : Fin 1) (0 : Fin 1)))
              * c (ix2 p (0 : Fin 1))) := by
  simp only [shapeCast_self]
  rw [mulf_apply, Cert.LibKeepdims.broadcastTo_a1_ab_apply, mulf_apply, tanh_apply,
    addf_apply, addf_apply, rowDot_column_apply, rowDot_column_apply, Cert.LibUnitSplat.broadcastTo_11_ab_apply]

end Cert.LibGatedRows

end
-- ==== Proof.GatePayload.lean ====
/-
  What one grid step stores, entry by entry, on the extended reals.

  The body loads a block of destination features x0 and a block of source features x1 (8000 edges by 64 features each),
  the two halves wd, ws of the gate's weight row (1 by 64 each), the gate's bias b (1 by 1) and a block np of the edges'
  degree factors (8000 by 1), and stores for edge p and feature q
      x1(p, q) * ( tanh( (sum_j x0(p, j) * wd(0, j) + sum_j x1(p, j) * ws(0, j)) + b(0, 0) ) * np(p, 0) ):
  the source feature scaled by the edge's gate, the gate being tanh of the linear form of the edge's two feature rows,
  times the degree factor.
-/
import proofs.«127869_j83459804496277_2_alg».proof.Proof.Gen.KernelIdeal.Skeleton
import proofs.«127869_j83459804496277_2_alg».proof.Proof.LibGatedRows

noncomputable section

namespace Cert.KernelIdeal.GateValue

open Idealize.ShloMosaic Idealize.ShloMosaic.ValueIdx Cert.KernelIdeal Cert.KernelIdeal.Gen

/-- The stored value at edge p of the block and feature q. -/
theorem payload_apply (x0 x1 : Vec Ideal S8000x64 .f32) (wd ws : Vec Ideal S1x64 .f32) (b : Vec Ideal S1x1 .f32)
    (np : Vec Ideal S8000x1 .f32) (p : Fin 8000) (q : Fin 64) :
    k0_pay1 (F := Ideal) x0 x1 wd ws b np (ix2 p q)
      = x1 (ix2 p q)
          * (Ideal.tanh ((∑ j : Fin 64, x0 (ix2 p j) * wd (ix2 (0 : Fin 1) j) + ∑ j : Fin 64, x1 (ix2 p j) * ws (ix2 (0 : Fin 1) j))
                + b (ix2 (0 : Fin 1) (0 : Fin 1)))
              * np (ix2 p (0 : Fin 1))) := by
  unfold k0_pay1
  exact Cert.LibGatedRows.gated_apply (φ := .f32) (n := 8000) (d := 64) x0 x1 wd ws b np _ _ _ _ _ _ _ _ _ _ _ _ p q

end Cert.KernelIdeal.GateValue

end
-- ==== Proof.GateBlocks.lean ====
/-
  From the 200 blocks to the whole message array.

  The grid has 200 points; point t works on edges 8000 t, ..., 8000 t + 7999: it reads those rows of the gathered
  destination and source features and of the degree column, and the whole of the two weight halves and of the bias,
  and writes back those rows of the output.  The rows of the 200 points tile the 1600000 edges, so after the grid the
  output array holds, for every edge e and feature k, the message
      hs(e, k) * ( tanh( (sum_j hd(e, j) * wd(0, j) + sum_j hs(e, j) * ws(0, j)) + b(0, 0) ) * np(e, 0) )
  of the six input arrays as the grid found them.
-/
import proofs.«127869_j83459804496277_2_alg».proof.Proof.Gen.KernelIdeal.Frame
import proofs.«127869_j83459804496277_2_alg».proof.Proof.GatePayload
import Idealize.ShloMosaic.Lib.Pipeline.Value
import Idealize.ShloMosaic.Lib.ValueIdx

noncomputable section

namespace Cert.KernelIdeal.GateValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The message of edge e at feature k, from the six arrays. -/
def edgeMsgAt (hd hs : S1600000x64.Idx → EReal) (wd ws : S1x64.Idx → EReal) (b : S1x1.Idx → EReal)
    (np : S1600000x1.Idx → EReal) (e : Fin 1600000) (k : Fin 64) : EReal :=
  hs (ix2 e k)
    * (Ideal.tanh ((∑ j : Fin 64, hd (ix2 e j) * wd (ix2 (0 : Fin 1) j) + ∑ j : Fin 64, hs (ix2 e j) * ws (ix2 (0 : Fin 1) j))
          + b (ix2 (0 : Fin 1) (0 : Fin 1)))
        * np (ix2 e (0 : Fin 1)))

/-- The whole message array. -/
def edgeMsg (hd hs : S1600000x64.Idx → EReal) (wd ws : S1x64.Idx → EReal) (b : S1x1.Idx → EReal)
    (np : S1600000x1.Idx → EReal) : S1600000x64.Idx → EReal :=
  fun i => edgeMsgAt hd hs wd ws b np ⟨(i 0).val, (i 0).isLt⟩ ⟨(i 1).val, (i 1).isLt⟩

theorem edgeMsg_ix2 (hd hs : S1600000x64.Idx → EReal) (wd ws : S1x64.Idx → EReal) (b : S1x1.Idx → EReal)
    (np : S1600000x1.Idx → EReal) (e : Fin 1600000) (k : Fin 64) :
    edgeMsg hd hs wd ws b np (ix2 e k) = edgeMsgAt hd hs wd ws b np e k := rfl

theorem zeros2 : (![0, 0] : Fin 2 → Nat) = fun _ => 0 := funext fun a => by fin_cases a <;> rfl

/-- The printed block index maps over the grid: the edge-blocked windows sit at block row t, everything else at 0. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem edge_lt (t : Fin cfg0.N) (p : Fin 8000) : t.val * 8000 + p.val < 1600000 := by
  have ht : t.val < 200 := Nat.lt_of_lt_of_eq t.isLt N_0
  have hp := p.isLt
  omega

/-! ## The six blocks of a point, read off six arrays

Stated for ANY six arrays of the windows' shapes: a block read is a matter of where the block sits, not of what the
array holds. -/

section Reads

variable (A0 A1 : S1600000x64.Idx → EReal) (A2 A3 : S1x64.Idx → EReal) (A4 : S1x1.Idx → EReal) (A5 : S1600000x1.Idx → EReal)

theorem dstRows_block (t : Fin cfg0.N) (p : Fin 8000) (j : Fin 64) :
    ((cfg0.win 0).blk t).view.read (Elt Ideal) A0 (ix2 p j) = A0 (ix2 ⟨t.val * 8000 + p.val, edge_lt t p⟩ j) := by
  show A0 (((cfg0.win 0).blk t).view.emb (ix2 p j)) = _
  refine congrArg A0 (funext fun a => Fin.ext ?_)
  obtain ⟨e0, e1, -⟩ := block_rows t
  match a with
  | ⟨0, _⟩ => show win0_0.index t (0 : Fin 2) * 8000 + 1 * p.val = t.val * 8000 + p.val; omega
  | ⟨1, _⟩ => show win0_0.index t (1 : Fin 2) * 64 + 1 * j.val = j.val; omega

theorem srcRows_block (t : Fin cfg0.N) (p : Fin 8000) (j : Fin 64) :
    ((cfg0.win 1).blk t).view.read (Elt Ideal) A1 (ix2 p j) = A1 (ix2 ⟨t.val * 8000 + p.val, edge_lt t p⟩ j) := by
  show A1 (((cfg0.win 1).blk t).view.emb (ix2 p j)) = _
  refine congrArg A1 (funext fun a => Fin.ext ?_)
  obtain ⟨-, -, e0, e1, -⟩ := block_rows t
  match a with
  | ⟨0, _⟩ => show win0_1.index t (0 : Fin 2) * 8000 + 1 * p.val = t.val * 8000 + p.val; omega
  | ⟨1, _⟩ => show win0_1.index t (1 : Fin 2) * 64 + 1 * j.val = j.val; omega

theorem dstWeights_block (t : Fin cfg0.N) (u : Fin 1) (j : Fin 64) :
    ((cfg0.win 2).blk t).view.read (Elt Ideal) A2 (ix2 u j) = A2 (ix2 u j) := by
  show A2 (((cfg0.win 2).blk t).view.emb (ix2 u j)) = _
  refine congrArg A2 (funext fun a => Fin.ext ?_)
  obtain ⟨-, -, -, -, e0, e1, -⟩ := block_rows t
  match a with
  | ⟨0, _⟩ => show win0_2.index t (0 : Fin 2) * 1 + 1 * u.val = u.val; omega
  | ⟨1, _⟩ => show win0_2.index t (1 : Fin 2) * 64 + 1 * j.val = j.val; omega

theorem srcWeights_block (t : Fin cfg0.N) (u : Fin 1) (j : Fin 64) :
    ((cfg0.win 3).blk t).view.read (Elt Ideal) A3 (ix2 u j) = A3 (ix2 u j) := by
  show A3 (((cfg0.win 3).blk t).view.emb (ix2 u j)) = _
  refine congrArg A3 (funext fun a => Fin.ext ?_)
  obtain ⟨-, -, -, -, -, -, e0, e1, -⟩ := block_rows t
  match a with
  | ⟨0, _⟩ => show win0_3.index t (0 : Fin 2) * 1 + 1 * u.val = u.val; omega
  | ⟨1, _⟩ => show win0_3.index t (1 : Fin 2) * 64 + 1 * j.val = j.val; omega

theorem bias_block (t : Fin cfg0.N) (u v : Fin 1) :
    ((cfg0.win 4).blk t).view.read (Elt Ideal) A4 (ix2 u v) = A4 (ix2 u v) := by
  show A4 (((cfg0.win 4).blk t).view.emb (ix2 u v)) = _
  refine congrArg A4 (funext fun a => Fin.ext ?_)
  obtain ⟨-, -, -, -, -, -, -, -, e0, e1, -⟩ := block_rows t
  match a with
  | ⟨0, _⟩ => show win0_4.index t (0 : Fin 2) * 1 + 1 * u.val = u.val; omega
  | ⟨1, _⟩ => show win0_4.index t (1 : Fin 2) * 1 + 1 * v.val = v.val; omega

theorem degreeColumn_block (t : Fin cfg0.N) (p : Fin 8000) (v : Fin 1) :
    ((cfg0.win 5).blk t).view.read (Elt Ideal) A5 (ix2 p v) = A5 (ix2 ⟨t.val * 8000 + p.val, edge_lt t p⟩ v) := by
  show A5 (((cfg0.win 5).blk t).view.emb (ix2 p v)) = _
  refine congrArg A5 (funext fun a => Fin.ext ?_)
  obtain ⟨-, -, -, -, -, -, -, -, -, -, e0, e1, -⟩ := block_rows t
  match a with
  | ⟨0, _⟩ => show win0_5.index t (0 : Fin 2) * 8000 + 1 * p.val = t.val * 8000 + p.val; omega
  | ⟨1, _⟩ => show win0_5.index t (1 : Fin 2) * 1 + 1 * v.val = v.val; omega

/-- Where entry (p, q) of point t's output block sits in the array. -/
theorem out_block_emb (t : Fin cfg0.N) (p : Fin 8000) (q : Fin 64) :
    ((cfg0.win 6).blk t).view.emb (ix2 p q) = (ix2 ⟨t.val * 8000 + p.val, edge_lt t p⟩ q : S1600000x64.Idx) := by
  refine funext fun a => Fin.ext ?_
  obtain ⟨-, -, -, -, -, -, -, -, -, -, -, -, e0, e1⟩ := block_rows t
  match a with
  | ⟨0, _⟩ => show win0_6.index t (0 : Fin 2) * 8000 + 1 * p.val = t.val * 8000 + p.val; omega
  | ⟨1, _⟩ => show win0_6.index t (1 : Fin 2) * 64 + 1 * q.val = q.val; omega

/-- The stored value of point t, computed from the point's blocks of ANY six arrays, is rows 8000 t .. 8000 t + 7999 of
    the message array of those six arrays. -/
theorem stored_block (t : Fin cfg0.N) :
    (cfg0.win 6).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (edgeMsg A0 A1 A2 A3 A4 A5) := by
  funext y
  obtain ⟨p, q, rfl⟩ : ∃ (p : Fin 8000) (q : Fin 64), y = ix2 p q := ⟨y 0, y 1, eq_ix2 y⟩
  show k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5) (ix2 p q)
      = edgeMsg A0 A1 A2 A3 A4 A5 (((cfg0.win 6).blk t).view.emb (ix2 p q))
  refine (payload_apply _ _ _ _ _ _ p q).trans ?_
  rw [out_block_emb t p q, edgeMsg_ix2]
  exact congrArg₂ (· * ·) (srcRows_block A1 t p q)
    (congrArg₂ (· * ·)
      (congrArg Ideal.tanh
        (congrArg₂ (· + ·)
          (congrArg₂ (· + ·)
            (Finset.sum_congr rfl fun j _ => congrArg₂ (· * ·) (dstRows_block A0 t p j) (dstWeights_block A2 t (0 : Fin 1) j))
            (Finset.sum_congr rfl fun j _ => congrArg₂ (· * ·) (srcRows_block A1 t p j) (srcWeights_block A3 t (0 : Fin 1) j)))
          (bias_block A4 t (0 : Fin 1) (0 : Fin 1))))
      (degreeColumn_block A5 t p (0 : Fin 1)))

end Reads

variable (m : (ℓ : Loc nD τ sig) → Buf (Elt Ideal) ℓ) (c : Dev nD)

/-! ## What a point writes back, the cover, the whole array -/

/-- Point t writes back rows 8000 t .. 8000 t + 7999 of the message array of the six arrays as the grid found them. -/
theorem flushed_eq (t : Fin cfg0.N) :
    (dats m 0 c).flushed 6 t = ((cfg0.win 6).blk t).view.read (Elt Ideal)
      (edgeMsg (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  show (cfg0.win 6).cut (grid0.coords t) ((dats m 0 c).after 6 t) = _
  rw [after0_6]
  unfold out0_6
  rw [View.canon_unit_zero zeros2]
  simp only [View.ld_unit_zero (S := S8000x64) zeros2, View.ld_unit_zero (S := S1x64) zeros2,
    View.ld_unit_zero (S := S1x1) zeros2, View.ld_unit_zero (S := S8000x1) zeros2]
  unfold iblk
  exact stored_block (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- An index of the array is in point t's block iff each coordinate is in the block's range on its axis. -/
theorem mem_block (t : Fin cfg0.N) (i : S1600000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v40).slice (win0_6.rect t)).set ↔ _
  rw [View.set_slice_whole, Rect.mem_set_unit]
  exact Iff.rfl

/-- Edge e is written back by point e / 8000. -/
theorem covered (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 200 := N_0
  have ht : (i 0).val / 8000 < cfg0.N := by rw [hN]; omega
  refine ⟨⟨(i 0).val / 8000, ht⟩, flush0_6 _, ?_⟩
  rw [mem_block]
  obtain ⟨-, -, -, -, -, -, -, -, -, -, -, -, e0, e1⟩ := block_rows ⟨(i 0).val / 8000, ht⟩
  intro a
  match a with
  | ⟨0, _⟩ =>
    show win0_6.index ⟨(i 0).val / 8000, ht⟩ (0 : Fin 2) * 8000 ≤ (i 0).val ∧ (i 0).val < win0_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_6.index ⟨(i 0).val / 8000, ht⟩ (1 : Fin 2) * 64 ≤ (i 1).val ∧ (i 1).val < win0_6.index ⟨(i 0).val / 8000, ht⟩ (1 : Fin 2) * 64 + 64
    rw [e1]; omega

/-- After the grid the output array is the message array of the six arrays as the grid found them. -/
theorem final : (dats m 0 c).arrAt 6 cfg0.N
    = edgeMsg (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed_eq m c t) covered

end Cert.KernelIdeal.GateValue

end
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.GateInputs.lean ====
/-
  What the grid finds in each of its six input arrays, as functions of the program's arguments.

  Before the grid runs, the host gathers the destination rows x[dst] and the source rows x[src] of the node features,
  cuts the gate's weight row into its destination half (columns 0..63) and its source half (columns 64..127), lays the
  bias as a 1 by 1 matrix, and lays as a column the product norm[src] * norm[dst] of the two degree factors, where
  norm = max(1, in-degree) ^ (-1/2) and the in-degree is the count of edges into a node.  The reference computes the same
  gathered rows and the same two gathered degree factors by the same operations, so each is stated here as the
  reference's own stage of the same arguments.
-/
import proofs.«127869_j83459804496277_2_alg».proof.Proof.Gen.KernelIdeal.Frame
import proofs.«127869_j83459804496277_2_alg».proof.Proof.Gen.ReferenceIdeal.Read
import proofs.«127869_j83459804496277_2_alg».proof.Proof.LibTypedRefs

noncomputable section

namespace Cert.KernelIdeal.GateValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The five arguments as launched: node features, gate weights, gate bias, edge sources, edge destinations. -/
abbrev aX : (⟨S100000x64, .f32⟩ : BufTy).Contents (Elt Ideal) := m ((c.tc : Thread nD τ).loc main_arg0)
abbrev aW : (⟨S1x128, .f32⟩ : BufTy).Contents (Elt Ideal) := m ((c.tc : Thread nD τ).loc main_arg1)
abbrev aB : (⟨S1, .f32⟩ : BufTy).Contents (Elt Ideal) := m ((c.tc : Thread nD τ).loc main_arg2)
abbrev aSrc : (⟨S1600000, .i32⟩ : BufTy).Contents (Elt Ideal) := m ((c.tc : Thread nD τ).loc main_arg3)
abbrev aDst : (⟨S1600000, .i32⟩ : BufTy).Contents (Elt Ideal) := m ((c.tc : Thread nD τ).loc main_arg4)

/-- Reads one buffer after the host operations that precede the grid. -/
macro "entry_contents" : tactic =>
  `(tactic| (dsimp only [Gen.V, Gen.V0]
             simp only [Gen.hostOps0, Gen.hostOps0_1, Gen.hostOps0_2, List.flatten_cons, List.flatten_nil, List.append_nil,
               List.cons_append, List.nil_append]
             after_results_simp))

/-! The clamp of the in-degree at 1 is an outlined function; its three values are written and read through typed
    references, which move a value between its own type and its buffer's declared type.  For these literal buffers the
    two types are one, and the moves are the identity. -/

theorem toBuf_clamped (h : main_v4.ty = (⟨S100000, .f32⟩ : BufTy)) (a : main_v4.space ≠ .host) (b : main_v4.isScoped = false)
    (v : (⟨S100000, .f32⟩ : BufTy).Contents (Elt Ideal)) :
    (TRef.of (sig := sig) main_v4 h a b).toBuf v = v := rfl

theorem ofBuf_one (h : main_cst_1.ty = (⟨S_, .f32⟩ : BufTy)) (a : main_cst_1.space ≠ .host) (b : main_cst_1.isScoped = false)
    (v : (⟨S_, .f32⟩ : BufTy).Contents (Elt Ideal)) :
    (TRef.of (sig := sig) main_cst_1 h a b).ofBuf v = v := rfl

theorem ofBuf_degree (h : main_v3.ty = (⟨S100000, .f32⟩ : BufTy)) (a : main_v3.space ≠ .host) (b : main_v3.isScoped = false)
    (v : (⟨S100000, .f32⟩ : BufTy).Contents (Elt Ideal)) :
    (TRef.of (sig := sig) main_v3 h a b).ofBuf v = v := rfl

/-- Window 0: the destination rows x[dst]. -/
theorem entry_dstRows : (Gen.V m c main_v20 : S1600000x64.Idx → EReal)
    = Cert.ReferenceIdeal.Read.val_main_v20 (F := Ideal) (aX m c) (aDst m c) := by
  entry_contents
  rfl

/-- Window 1: the source rows x[src]. -/
theorem entry_srcRows : (Gen.V m c main_v13 : S1600000x64.Idx → EReal)
    = Cert.ReferenceIdeal.Read.val_main_v13 (F := Ideal) (aX m c) (aSrc m c) := by
  entry_contents
  rfl

/-- Window 2: columns 0..63 of the weight row. -/
theorem entry_dstWeights : (Gen.V m c main_v37 : S1x64.Idx → EReal)
    = extractStridedSlice S1x64 ![0, 0] (aW m c) slices_S1x128_S1x64_0_0 := by
  entry_contents

/-- Window 3: columns 64..127 of the weight row. -/
theorem entry_srcWeights : (Gen.V m c main_v38 : S1x64.Idx → EReal)
    = extractStridedSlice S1x64 ![0, 64] (aW m c) slices_S1x128_S1x64_0_64 := by
  entry_contents

/-- Window 4: the bias as a 1 by 1 matrix. -/
theorem entry_bias : (Gen.V m c main_v39 : S1x1.Idx → EReal) = shapeCast S1x1 (aB m c) shapeCasts_S1_S1x1 := by
  entry_contents
  rfl

/-- Window 5: the column of norm[src] * norm[dst]. -/
theorem entry_degreeColumn : @Eq (S1600000x1.Idx → EReal) (Gen.V m c main_v36)
    (broadcastInDim S1600000x1 ![0] bcast_S1600000_S1600000x1_0
        (mulf (F := Ideal) (s := S1600000) (φ := .f32) (Cert.ReferenceIdeal.Read.val_main_v43 (F := Ideal) (aSrc m c) (aDst m c))
          (Cert.ReferenceIdeal.Read.val_main_v35 (F := Ideal) (aDst m c)))) := by
  entry_contents
  simp only [Cert.LibTypedRefs.ofBuf_toBuf, toBuf_clamped, ofBuf_one, ofBuf_degree]
  rfl

end Cert.KernelIdeal.GateValue

end
-- ==== Proof.GateTail.lean ====
/-
  After the grid: the messages summed into their destination nodes.

  The four host operations after the grid build a zero [100000, 64] array and the [1600000, 1] column of the
  destination indices, and scatter-add the grid's output rows into the zero array at those indices.  So the
  program's result is that scatter-add of whatever the grid left in its output array, and the five argument arrays
  end as launched.
-/
import proofs.«127869_j83459804496277_2_alg».proof.Proof.Gen.KernelIdeal.Frame
import proofs.«127869_j83459804496277_2_alg».proof.Proof.GateInputs

noncomputable section

namespace Cert.KernelIdeal.GateValue

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The messages M summed into the nodes: row e of M is added into row dst[e] of a zero array. -/
def sumIntoNodes (dst : (⟨S1600000, .i32⟩ : BufTy).Contents (Elt Ideal)) (M : S1600000x64.Idx → EReal) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) M

/-- The result buffer after the host tail. -/
theorem tail_result : @Eq (S100000x64.Idx → EReal)
    (Pipeline.afterTail₀ cfgs (dats m) 0 (V0 m) [hostOps1] c main_v43)
    (sumIntoNodes (aDst m c) ((dats m 0 c).arrAt 6 cfg0.N)) := by
  unfold Pipeline.afterTail₀
  show StableHlo.after hostOps1 _ (Proc.devRef .tc main_v43) = _
  after_results
  have hOut : Pipeline.withArrays (cfgs 0).spec c (V0 m c) (fun w => (dats m 0 c).arrAt w (cfgs 0).N) (Proc.devRef .tc main_v40)
      = (dats m 0 c).arrAt 6 cfg0.N :=
    Pipeline.withArrays_arr spec0 launch0.win.arr_inj c (V0 m c) _ 6
  have hDst : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  rw [hOut, hDst]
  rfl

/-- The program's run: every execution terminates with the result at the messages summed into the nodes, the messages
    being whatever the grid left in its output array, and the five arguments as launched. -/
theorem run_result : θ_run defs (onTc (τ := τ) (main (F := Ideal))) ⟨m, fun _ => 0, ρ⟩ (fun r => ∀ c : Dev nD,
      r.2.mem ((c.tc : Thread nD τ).loc main_v43) = sumIntoNodes (aDst m c) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v43 (Pipeline.mem_restRefs_of main_v43 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.GateValue

end
-- ==== Proof.LibConcatColumns.lean ====
/-
  TWO MATRICES JOINED SIDE BY SIDE, READ AT AN INDEX. The concatenation along axis 1 of an [n, a] matrix and an
  [n, b] matrix into [n, c]: entry (p, k) of the result is the left matrix's (p, k) for a column k of the left
  piece, and the right matrix's (p, k) at result column a + k. General in the extents and in the element type.
-/
import Idealize.ShloMosaic.Lib.Pipeline.Value
import Idealize.ShloMosaic.Lib.ValueIdx

namespace Cert.LibConcatColumns

open Idealize.ShloMosaic Idealize.ShloMosaic.ValueIdx

variable {α : Type} {n a b c : ℕ}

/-- A column of the left piece: the result's entry there is the left matrix's entry. -/
theorem concat_cols_left (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin a) (hk : k.val < c) :
    concatenate (⟨2, ![n, c]⟩ : Shape) 1 [⟨⟨2, ![n, a]⟩, x₁⟩, ⟨⟨2, ![n, b]⟩, x₂⟩] h (ix2 p (⟨k.val, hk⟩ : Fin c)) = x₁ (ix2 p k) :=
  concatenate_pair_apply_left (1 : Fin 2) x₁ x₂ h (ix2 p (⟨k.val, hk⟩ : Fin c)) rfl (ix2 p k)
    (fun d => match d with | ⟨0, _⟩ => rfl | ⟨1, _⟩ => rfl)

/-- A column of the right piece: the result's entry at column a + k is the right matrix's entry at column k. -/
theorem concat_cols_right (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin b) (hk : a + k.val < c) :
    concatenate (⟨2, ![n, c]⟩ : Shape) 1 [⟨⟨2, ![n, a]⟩, x₁⟩, ⟨⟨2, ![n, b]⟩, x₂⟩] h (ix2 p (⟨a + k.val, hk⟩ : Fin c)) = x₂ (ix2 p k) :=
  concatenate_pair_apply_right (1 : Fin 2) x₁ x₂ h (ix2 p (⟨a + k.val, hk⟩ : Fin c)) rfl rfl (ix2 p k)
    (fun d => match d with
      | ⟨0, _⟩ => fun _ => rfl
      | ⟨1, _⟩ => fun hne => absurd rfl hne)
    (show k.val + a = a + k.val from Nat.add_comm _ _)

end Cert.LibConcatColumns
-- ==== Proof.LibSplitContraction.lean ====
/-
  A contraction against two matrices joined side by side splits into the two pieces' contractions.

  For an [n, a] matrix x₁ and an [n, b] matrix x₂ joined along the columns into [n, a + b], and any weights w on the
  a + b columns, row p of the join contracted with w is the contraction of row p of x₁ with the first a weights plus
  the contraction of row p of x₂ with the last b weights:
      sum_{k < a + b} join(p, k) * w(k)  =  sum_{j < a} x₁(p, j) * w(j)  +  sum_{j < b} x₂(p, j) * w(a + j).
  Only the commutative-monoid structure of the sum is used (no distributivity), so it holds on the extended reals.
  General in the extents and the element type.
-/
import Idealize.ShloMosaic.Lib.Pipeline.Value
import Idealize.ShloMosaic.Lib.ValueIdx
import proofs.«127869_j83459804496277_2_alg».proof.Proof.LibConcatColumns

namespace Cert.LibSplitContraction

open Idealize.ShloMosaic Idealize.ShloMosaic.ValueIdx

variable {α : Type} [AddCommMonoid α] [Mul α] {n a b : ℕ}

theorem sum_concat_cols (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, a + b]⟩ 1) (w : Fin (a + b) → α) (p : Fin n) :
    ∑ k : Fin (a + b), concatenate (⟨2, ![n, a + b]⟩ : Shape) 1 [⟨⟨2, ![n, a]⟩, x₁⟩, ⟨⟨2, ![n, b]⟩, x₂⟩] h (ix2 p k) * w k
      = ∑ j : Fin a, x₁ (ix2 p j) * w (Fin.castAdd b j) + ∑ j : Fin b, x₂ (ix2 p j) * w (Fin.natAdd a j) := by
  rw [Fin.sum_univ_add]
  refine congrArg₂ (· + ·) (Finset.sum_congr rfl fun j _ => ?_) (Finset.sum_congr rfl fun j _ => ?_)
  · exact congrArg (· * w (Fin.castAdd b j))
      (Cert.LibConcatColumns.concat_cols_left x₁ x₂ h p j (Nat.lt_of_lt_of_le j.isLt (Nat.le_add_right a b)))
  · exact congrArg (· * w (Fin.natAdd a j))
      (Cert.LibConcatColumns.concat_cols_right x₁ x₂ h p j (Nat.add_lt_add_left j.isLt a))

end Cert.LibSplitContraction
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.GateReference.lean ====
/-
  The reference's messages are the same array.

  The reference joins each edge's destination row and source row side by side into a row of 128 features, contracts it
  with the whole 128-wide weight row, adds the bias, applies tanh, multiplies by norm[dst] and then by norm[src], and
  scales the source row by the result.  Entry (e, k) of its message array is therefore
      hs(e, k) * ( ( tanh( sum_{j < 128} join(e, j) * w(0, j) + b(0) ) * nd(e) ) * ns(e) ).
  The contraction of the joined row splits into the destination half against w(0, 0..63) plus the source half against
  w(0, 64..127), and the product (g * nd) * ns is g * (ns * nd) by associativity and commutativity of the product of
  extended reals; neither step needs the entries to be finite.  So the reference's messages are the message array of
  the gathered rows, the two halves of the weight row, the bias laid as a 1 by 1 matrix, and the column ns * nd.
-/
import proofs.«127869_j83459804496277_2_alg».proof.Proof.Gen.ReferenceIdeal.Read
import proofs.«127869_j83459804496277_2_alg».proof.Proof.GateBlocks
import proofs.«127869_j83459804496277_2_alg».proof.Proof.LibSplitContraction
import proofs.«127869_j83459804496277_2_alg».proof.Proof.LibKeepdims
import proofs.«127869_j83459804496277_2_alg».proof.Proof.LibBroadcastInDim
import Idealize.ShloMosaic.Lib.ValueLayout

noncomputable section

namespace Cert.ReferenceIdeal.GateValue

open Idealize.ShloMosaic Idealize.ShloMosaic.ValueIdx
open Cert.ReferenceIdeal Cert.ReferenceIdeal.Gen Cert.ReferenceIdeal.Read
open Cert.KernelIdeal.GateValue (edgeMsg edgeMsgAt edgeMsg_ix2)

/-! ## Where each layout operation of the reference reads, at the coordinates of an edge -/

theorem at_spread (e : Fin 1600000) (k : Fin 64) : idx_main_v46 (ix2 e k) = ix2 e (0 : Fin 1) :=
  funext fun a => Fin.ext (by match a with | ⟨0, _⟩ => rfl | ⟨1, _⟩ => rfl)
theorem at_column (e : Fin 1600000) (u : Fin 1) : idx_main_v45 (ix2 e u) = ix1 e :=
  funext fun a => Fin.ext (by match a with | ⟨0, _⟩ => rfl)
theorem at_flat (e : Fin 1600000) : idx_main_v28 (ix1 e) = ix2 e (0 : Fin 1) :=
  funext fun a => Fin.ext (by match a with | ⟨0, _⟩ => exact Nat.div_one _ | ⟨1, _⟩ => rfl)
theorem at_bias_rows (e : Fin 1600000) (u : Fin 1) : idx_main_v25 (ix2 e u) = ix2 (0 : Fin 1) (0 : Fin 1) :=
  funext fun a => Fin.ext (by match a with | ⟨0, _⟩ => rfl | ⟨1, _⟩ => rfl)
theorem at_bias (u v : Fin 1) : idx_main_v24 (ix2 u v) = ix1 (0 : Fin 1) :=
  funext fun a => Fin.ext (by match a with | ⟨0, _⟩ => rfl)
theorem at_left (e : Fin 1600000) (u : Fin 1) (j : Fin 128) : lidx_main_v23 (ix2 e u) j = ix2 e j :=
  funext fun a => Fin.ext (by match a with | ⟨0, _⟩ => rfl | ⟨1, _⟩ => rfl)
theorem at_right (e : Fin 1600000) (u : Fin 1) (j : Fin 128) : ridx_main_v23 (ix2 e u) j = ix2 j u :=
  funext fun a => Fin.ext (by match a with | ⟨0, _⟩ => rfl | ⟨1, _⟩ => rfl)
theorem at_transposed (j : Fin 128) (u : Fin 1) : idx_main_v22 (ix2 j u) = ix2 u j :=
  funext fun a => Fin.ext (by match a with | ⟨0, _⟩ => rfl | ⟨1, _⟩ => rfl)

variable (x0 : (⟨S100000x64, .f32⟩ : BufTy).Contents (Elt Ideal)) (x1 : (⟨S1x128, .f32⟩ : BufTy).Contents (Elt Ideal))
  (x2 : (⟨S1, .f32⟩ : BufTy).Contents (Elt Ideal)) (x3 x4 : (⟨S1600000, .i32⟩ : BufTy).Contents (Elt Ideal))

/-- The reference's message array is the message array of the gathered rows x[dst] and x[src], the two halves of the
    weight row, the bias laid as a 1 by 1 matrix, and the column of norm[src] * norm[dst]. -/
theorem messages_eq (hs0 : S1x128.Slices ![0, 0] ⟨2, ![1, 64]⟩) (hs1 : S1x128.Slices ![0, 64] ⟨2, ![1, 64]⟩)
    (hc : S1.ShapeCasts ⟨2, ![1, 1]⟩) (hb : S1600000.BroadcastsInDim S1600000x1 ![0]) :
    val_main_v47 (F := Ideal) x0 x1 x2 x3 x4
      = edgeMsg (val_main_v20 (F := Ideal) x0 x4) (val_main_v13 (F := Ideal) x0 x3)
          (extractStridedSlice ⟨2, ![1, 64]⟩ ![0, 0] x1 hs0) (extractStridedSlice ⟨2, ![1, 64]⟩ ![0, 64] x1 hs1)
          (shapeCast ⟨2, ![1, 1]⟩ x2 hc)
          (broadcastInDim S1600000x1 ![0] hb
            (mulf (F := Ideal) (s := S1600000) (φ := .f32) (val_main_v43 (F := Ideal) x3 x4) (val_main_v35 (F := Ideal) x4))) := by
  funext i
  obtain ⟨e, k, rfl⟩ : ∃ (e : Fin 1600000) (k : Fin 64), i = ix2 e k := ⟨i 0, i 1, eq_ix2 i⟩
  rw [edgeMsg_ix2]
  rw [val_main_v47_apply, val_main_v46_apply, at_spread, val_main_v45_apply, at_column, val_main_v44_apply,
    val_main_v36_apply, val_main_v28_apply, at_flat, val_main_v27_apply, val_main_v26_apply, val_main_v25_apply,
    at_bias_rows, val_main_v24_apply, at_bias, val_main_v23_apply]
  unfold val_main_v21
  generalize val_main_v20 (F := Ideal) x0 x4 = hd
  generalize val_main_v13 (F := Ideal) x0 x3 = hs
  generalize val_main_v43 (F := Ideal) x3 x4 = ns
  generalize val_main_v35 (F := Ideal) x4 = nd
  simp only [at_left, at_right, val_main_v22_apply, at_transposed]
  have hsplit := Cert.LibSplitContraction.sum_concat_cols (a := 64) (b := 64) hd hs
    concatenates_S1600000x64_S1600000x64_S1600000x128_d1 (fun j => x1 (ix2 (0 : Fin 1) j)) e
  have hwd : ∀ j : Fin 64, extractStridedSlice ⟨2, ![1, 64]⟩ ![0, 0] x1 hs0 (ix2 (0 : Fin 1) j) = x1 (ix2 (0 : Fin 1) (Fin.castAdd 64 j)) :=
    fun j => slice2_axis1_apply 0 x1 hs0 (0 : Fin 1) j (Fin.castAdd 64 j) (Nat.zero_add _).symm
  have hws : ∀ j : Fin 64, extractStridedSlice ⟨2, ![1, 64]⟩ ![0, 64] x1 hs1 (ix2 (0 : Fin 1) j) = x1 (ix2 (0 : Fin 1) (Fin.natAdd 64 j)) :=
    fun j => slice2_axis1_apply 64 x1 hs1 (0 : Fin 1) j (Fin.natAdd 64 j) rfl
  have hb0 : shapeCast ⟨2, ![1, 1]⟩ x2 hc (ix2 (0 : Fin 1) (0 : Fin 1)) = x2 (ix1 (0 : Fin 1)) :=
    Cert.LibKeepdims.shapeCast_a_a1_apply x2 hc (0 : Fin 1) (0 : Fin 1)
  have hnp : broadcastInDim S1600000x1 ![0] hb (mulf (F := Ideal) (s := S1600000) (φ := .f32) ns nd) (ix2 e (0 : Fin 1))
      = mulf (F := Ideal) (s := S1600000) (φ := .f32) ns nd (ix1 e) :=
    Cert.LibBroadcastInDim.vec_col_apply hb _ e (0 : Fin 1)
  unfold edgeMsgAt
  simp only [hwd, hws]
  rw [hb0, hnp, mulf_apply, ← hsplit]
  simp only [Ideal.mulf_def, Ideal.addf_def, Ideal.hostUnary_tanh_def]
  rw [mul_assoc (Ideal.tanh _), mul_comm (nd (ix1 e)) (ns (ix1 e))]

end Cert.ReferenceIdeal.GateValue

end
-- ==== Proof.lean ====
/-
  Gated degree-normalised message passing on a graph: the fused program against its plain reference, on the extended reals.

  Both programs take node features x [100000, 64], a gate weight row w [1, 128], a gate bias b [1] and the edges'
  source and destination indices [1600000].  With norm = max(1, in-degree) ^ (-1/2), hd = x[dst], hs = x[src], each
  computes for every edge e a gate and the message  hs(e, ·) * gate(e),  and sums the messages into their destination
  nodes.

  The fused program computes the messages on a grid of 200 blocks of 8000 edges; its gate is
      tanh( (sum_{j<64} hd(e, j) w(0, j) + sum_{j<64} hs(e, j) w(0, 64 + j)) + b ) * (norm[src e] * norm[dst e]).
  The reference's gate is
      ( tanh( sum_{j<128} [hd(e, ·), hs(e, ·)](j) w(0, j) + b ) * norm[dst e] ) * norm[src e].
  The two agree on the extended reals: a sum over the 128 joined columns is the sum over the first 64 plus the sum over
  the last 64, and the product is associative and commutative; no entry needs to be finite, so the precondition is not
  used.  The gathers, the in-degree count and the final scatter-add are the same operations of the same arguments in
  both programs and are never opened: both results are stated as the same scatter-add of the same message array.

  The modules: GatePayload (what a grid step stores, entry by entry), GateBlocks (from the 200 blocks to the whole
  message array), GateInputs (what the grid finds in its six input arrays), GateTail (the scatter-add after the grid,
  and the program's run), GateReference (the reference's messages are the same array).
-/
import proofs.«127869_j83459804496277_2_alg».proof.Defs
import proofs.«127869_j83459804496277_2_alg».proof.Proof.Gen.Kernel
import proofs.«127869_j83459804496277_2_alg».proof.Proof.Gen.Kernel.Skeleton
import proofs.«127869_j83459804496277_2_alg».proof.Proof.Gen.Kernel.Launch
import proofs.«127869_j83459804496277_2_alg».proof.Proof.Gen.Kernel.Points
import proofs.«127869_j83459804496277_2_alg».proof.Proof.Gen.Kernel.Frame
import proofs.«127869_j83459804496277_2_alg».proof.Proof.Gen.KernelIdeal
import proofs.«127869_j83459804496277_2_alg».proof.Proof.Gen.KernelIdeal.Skeleton
import proofs.«127869_j83459804496277_2_alg».proof.Proof.Gen.KernelIdeal.Launch
import proofs.«127869_j83459804496277_2_alg».proof.Proof.Gen.KernelIdeal.Points
import proofs.«127869_j83459804496277_2_alg».proof.Proof.Gen.KernelIdeal.Frame
import proofs.«127869_j83459804496277_2_alg».proof.Proof.Gen.ReferenceIdeal
import proofs.«127869_j83459804496277_2_alg».proof.Proof.Gen.ReferenceIdeal.Run
import proofs.«127869_j83459804496277_2_alg».proof.Proof.Gen.ReferenceIdeal.Read
import proofs.«127869_j83459804496277_2_alg».proof.Proof.Gen.Pre_finite_inputs
import proofs.«127869_j83459804496277_2_alg».proof.Proof.GateBlocks
import proofs.«127869_j83459804496277_2_alg».proof.Proof.GateInputs
import proofs.«127869_j83459804496277_2_alg».proof.Proof.GateTail
import proofs.«127869_j83459804496277_2_alg».proof.Proof.GateReference
import Idealize.ShloMosaic.Adequacy
import Idealize.ShloMosaic.Init

noncomputable section

namespace Cert.Proof

open Idealize.ShloMosaic Idealize.ShloMosaic.TcCoe Idealize.SL.Sem
open Cert.KernelIdeal Cert.KernelIdeal.Gen Cert.KernelIdeal.GateValue

/-- The message array depends on its six arrays only. -/
theorem edgeMsg_congr {a0 a0' a1 a1' : S1600000x64.Idx → EReal} {a2 a2' a3 a3' : S1x64.Idx → EReal}
    {a4 a4' : S1x1.Idx → EReal} {a5 a5' : S1600000x1.Idx → EReal}
    (h0 : a0 = a0') (h1 : a1 = a1') (h2 : a2 = a2') (h3 : a3 = a3') (h4 : a4 = a4') (h5 : a5 = a5') :
    edgeMsg a0 a1 a2 a3 a4 a5 = edgeMsg a0' a1' a2' a3' a4' a5' := by
  subst h0 h1 h2 h3 h4 h5; rfl

/-- What the grid leaves in its output array is the reference's message array of the same arguments. -/
theorem kernel_messages (m : (ℓ : Loc nD τ sig) → Buf (Elt Ideal) ℓ) (c : Dev nD) :
    (dats m 0 c).arrAt 6 cfg0.N
      = Cert.ReferenceIdeal.Read.val_main_v47 (F := Ideal) (aX m c) (aW m c) (aB m c) (aSrc m c) (aDst m c) :=
  ((final m c).trans
      (edgeMsg_congr (entry_dstRows m c) (entry_srcRows m c) (entry_dstWeights m c) (entry_srcWeights m c) (entry_bias m c)
        (entry_degreeColumn m c))).trans
    (Cert.ReferenceIdeal.GateValue.messages_eq (aX m c) (aW m c) (aB m c) (aSrc m c) (aDst m c)
      slices_S1x128_S1x64_0_0 slices_S1x128_S1x64_0_64 shapeCasts_S1_S1x1 bcast_S1600000_S1600000x1_0).symm

/-- The reference's result is the same scatter-add, of its own message array. -/
theorem reference_result (a0 : (⟨S100000x64, .f32⟩ : BufTy).Contents (Elt Ideal)) (a1 : (⟨S1x128, .f32⟩ : BufTy).Contents (Elt Ideal))
    (a2 : (⟨S1, .f32⟩ : BufTy).Contents (Elt Ideal)) (a3 a4 : (⟨S1600000, .i32⟩ : BufTy).Contents (Elt Ideal)) :
    Cert.ReferenceIdeal.Read.val_main_v50 (F := Ideal) a0 a1 a2 a3 a4
      = sumIntoNodes a4 (Cert.ReferenceIdeal.Read.val_main_v47 (F := Ideal) a0 a1 a2 a3 a4) := by
  unfold Cert.ReferenceIdeal.Read.val_main_v50
  generalize Cert.ReferenceIdeal.Read.val_main_v47 (F := Ideal) a0 a1 a2 a3 a4 = M
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing: the idealised program is the program's own text read on the extended reals. -/
theorem preserves : Cert.preserves_Kernel_KernelIdeal := trivial

/-- From memories agreeing on the five arguments both programs end with the messages of those arguments summed into
    their destination nodes. -/
theorem algebraic : Cert.algebraic_KernelIdeal_ReferenceIdeal := by
  intro m ρ m' ρ' _ hagree
  refine ⟨fun c => sumIntoNodes (aDst m c)
      (Cert.ReferenceIdeal.Read.val_main_v47 (F := Ideal) (aX m c) (aW m c) (aB m c) (aSrc m c) (aDst m c)), ?_, ?_⟩
  · exact (θ_run Cert.KernelIdeal.defs _ _).mono
      (fun _ h c => ⟨(h c).1.trans (congrArg (sumIntoNodes (aDst m c)) (kernel_messages m c)), (h c).2⟩) (run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2]
    exact reference_result _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
